-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8x2048x64 : Shape := ⟨4, ![4, 8, 2048, 64]⟩
abbrev S_ : Shape := ⟨0, ![]⟩

class Facts : Prop where
  bcast_S_S4x8x2048x64 : S_.BroadcastsInDim S4x8x2048x64 (![] : Fin 0 → Fin S4x8x2048x64.rank)
  reducesTo_S4x8x2048x64_S_d0_1_2_3 : S4x8x2048x64.ReducesTo [0, 1, 2, 3] S_
  h_S_ : 0 < S_.numel

variable [Facts]

def fn_part1 {F : FTy → Type} [FloatOps F] (main_v13 : IVec S_ 1) (main_v16 : IVec S4x8x2048x64 1) : IVec S_ 1 :=
  let main_c_5 : IVec S_ 1 := constantI S_ 1 1#1
  let main_v17 : IVec S_ 1 := (fun x v => Host.reduce IntOp.andi x v reducesTo_S4x8x2048x64_S_d0_1_2_3 h_S_) main_v16 main_c_5
  let main_v18 : IVec S_ 1 := andi main_v13 main_v17
  main_v18

def fn {F : FTy → Type} [FloatOps F] (main_arg0 : FVec F S4x8x2048x64 .f32) (main_arg1 : FVec F S4x8x2048x64 .f32) (main_arg2 : FVec F S4x8x2048x64 .f32) (main_arg3 : FVec F S4x8x2048x64 .f32) : IVec S_ 1 :=
  let main_v0 : FVec F S4x8x2048x64 .f32 := Host.absf main_arg0
  let main_cst : FVec F S_ .f32 := constant S_ .f32 0x7F800000#32
  let main_v1 : FVec F S4x8x2048x64 .f32 := broadcastInDim S4x8x2048x64 ![] bcast_S_S4x8x2048x64 main_cst
  let main_v2 : IVec S4x8x2048x64 1 := cmpf .olt main_v0 main_v1
  let main_c : IVec S_ 1 := constantI S_ 1 1#1
  let main_v3 : IVec S_ 1 := (fun x v => Host.reduce IntOp.andi x v reducesTo_S4x8x2048x64_S_d0_1_2_3 h_S_) main_v2 main_c
  let main_v4 : FVec F S4x8x2048x64 .f32 := Host.absf main_arg1
  let main_cst_0 : FVec F S_ .f32 := constant S_ .f32 0x7F800000#32
  let main_v5 : FVec F S4x8x2048x64 .f32 := broadcastInDim S4x8x2048x64 ![] bcast_S_S4x8x2048x64 main_cst_0
  let main_v6 : IVec S4x8x2048x64 1 := cmpf .olt main_v4 main_v5
  let main_c_1 : IVec S_ 1 := constantI S_ 1 1#1
  let main_v7 : IVec S_ 1 := (fun x v => Host.reduce IntOp.andi x v reducesTo_S4x8x2048x64_S_d0_1_2_3 h_S_) main_v6 main_c_1
  let main_v8 : IVec S_ 1 := andi main_v3 main_v7
  let main_v9 : FVec F S4x8x2048x64 .f32 := Host.absf main_arg2
  let main_cst_2 : FVec F S_ .f32 := constant S_ .f32 0x7F800000#32
  let main_v10 : FVec F S4x8x2048x64 .f32 := broadcastInDim S4x8x2048x64 ![] bcast_S_S4x8x2048x64 main_cst_2
  let main_v11 : IVec S4x8x2048x64 1 := cmpf .olt main_v9 main_v10
  let main_c_3 : IVec S_ 1 := constantI S_ 1 1#1
  let main_v12 : IVec S_ 1 := (fun x v => Host.reduce IntOp.andi x v reducesTo_S4x8x2048x64_S_d0_1_2_3 h_S_) main_v11 main_c_3
  let main_v13 : IVec S_ 1 := andi main_v8 main_v12
  let main_v14 : FVec F S4x8x2048x64 .f32 := Host.absf main_arg3
  let main_cst_4 : FVec F S_ .f32 := constant S_ .f32 0x7F800000#32
  let main_v15 : FVec F S4x8x2048x64 .f32 := broadcastInDim S4x8x2048x64 ![] bcast_S_S4x8x2048x64 main_cst_4
  let main_v16 : IVec S4x8x2048x64 1 := cmpf .olt main_v14 main_v15
  fn_part1 (F := F) main_v13 main_v16
-- ==== Kernel.lean ====
abbrev S4x8x2048x64 : Shape := ⟨4, ![4, 8, 2048, 64]⟩
abbrev S4x8x2048x2048 : Shape := ⟨4, ![4, 8, 2048, 2048]⟩
abbrev S1x1x512x64 : Shape := ⟨4, ![1, 1, 512, 64]⟩
abbrev S1x1x2048x64 : Shape := ⟨4, ![1, 1, 2048, 64]⟩
abbrev S1x1x512x2048 : Shape := ⟨4, ![1, 1, 512, 2048]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S4x8x2048x64, .f32⟩
  | .hbm, ⟨1, _⟩ => ⟨S4x8x2048x64, .f32⟩
  | .hbm, ⟨2, _⟩ => ⟨S4x8x2048x64, .f32⟩
  | .hbm, ⟨3, _⟩ => ⟨S4x8x2048x64, .f32⟩
  | .hbm, ⟨4, _⟩ => ⟨S4x8x2048x64, .bf16⟩
  | .hbm, ⟨5, _⟩ => ⟨S4x8x2048x64, .bf16⟩
  | .hbm, ⟨6, _⟩ => ⟨S4x8x2048x64, .f32⟩
  | .hbm, ⟨7, _⟩ => ⟨S4x8x2048x2048, .f32⟩
  | .local _ .vmem, ⟨0, _⟩ => ⟨S1x1x512x64, .f32⟩
  | .local _ .vmem, ⟨1, _⟩ => ⟨S1x1x512x64, .f32⟩
  | .local _ .vmem, ⟨2, _⟩ => ⟨S1x1x2048x64, .bf16⟩
  | .local _ .vmem, ⟨3, _⟩ => ⟨S1x1x2048x64, .bf16⟩
  | .local _ .vmem, ⟨4, _⟩ => ⟨S1x1x2048x64, .bf16⟩
  | .local _ .vmem, ⟨5, _⟩ => ⟨S1x1x2048x64, .bf16⟩
  | .local _ .vmem, ⟨6, _⟩ => ⟨S1x1x512x64, .f32⟩
  | .local _ .vmem, ⟨7, _⟩ => ⟨S1x1x512x64, .f32⟩
  | .local _ .vmem, ⟨8, _⟩ => ⟨S1x1x512x64, .f32⟩
  | .local _ .vmem, ⟨9, _⟩ => ⟨S1x1x512x64, .f32⟩
  | .local _ .vmem, ⟨10, _⟩ => ⟨S1x1x512x2048, .f32⟩
  | .local _ .vmem, ⟨11, _⟩ => ⟨S1x1x512x2048, .f32⟩
  | _, _ => ⟨S4x8x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 8, 4], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

class Facts₀ : Prop where
  bitsLt_bf16_f32 : FTy.bits .bf16 < FTy.bits .f32
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  reduces_S512x2048_S512 : S512x2048.Reduces [1] S512
  shapeCasts_S512_S512x1 : S512.ShapeCasts S512x1
  broadcasts_S512x1_S512x2048 : S512x1.Broadcasts S512x2048
  inb_S1x1x512x2048_S1x1x512x2048_0_0_0_0 : ∀ a, (![0, 0, 0, 0] : Fin 4 → Nat) a + S1x1x512x2048.size a ≤ S1x1x512x2048.size a
  h_S1x1x512x2048 : 0 < S1x1x512x2048.numel
  shapeCasts_S1x1x512x2048_S512x2048 : S1x1x512x2048.ShapeCasts S512x2048
  shapeCasts_S512x2048_S1x1x512x2048 : S512x2048.ShapeCasts S1x1x512x2048
  shapeCasts_S512x64_S1x1x512x64 : S512x64.ShapeCasts S1x1x512x64
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x64.size a ≤ S4x8x2048x64.size a
  hwx0_0 : ∀ i : grid0.Coords, EltTy.bits .f32 = 32 ∨ (Rect.block (s := S4x8x2048x64) S1x1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048x64.size a ≤ S4x8x2048x64.size a
  hwx0_1 : ∀ i : grid0.Coords, EltTy.bits .bf16 = 32 ∨ (Rect.block (s := S4x8x2048x64) S1x1x2048x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x64.size a ≤ S4x8x2048x64.size a
  hwx0_2 : ∀ i : grid0.Coords, EltTy.bits .bf16 = 32 ∨ (Rect.block (s := S4x8x2048x64) S1x1x2048x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512x64.size a ≤ S4x8x2048x64.size a
  hwx0_3 : ∀ i : grid0.Coords, EltTy.bits .f32 = 32 ∨ (Rect.block (s := S4x8x2048x64) S1x1x512x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512x64.size a ≤ S4x8x2048x64.size a
  hwx0_4 : ∀ i : grid0.Coords, EltTy.bits .f32 = 32 ∨ (Rect.block (s := S4x8x2048x64) S1x1x512x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x512x2048.size a ≤ S4x8x2048x2048.size a
  hwx0_5 : ∀ i : grid0.Coords, EltTy.bits .f32 = 32 ∨ (Rect.block (s := S4x8x2048x2048) S1x1x512x2048.size (cc0_transform_5 i) (hinb0_5 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1x512x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S1x1x512x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S1x1x512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x8x2048x64 : Shape := ⟨4, ![4, 8, 2048, 64]⟩
abbrev S_ : Shape := ⟨0, ![]⟩
abbrev S4x8x2048x2048 : Shape := ⟨4, ![4, 8, 2048, 2048]⟩
abbrev S4x8x2048 : Shape := ⟨3, ![4, 8, 2048]⟩
abbrev S4x8x2048x1 : Shape := ⟨4, ![4, 8, 2048, 1]⟩

abbrev nBuf : Space → Nat
  | .hbm => 24
  | .vmem => 0
  | .smem => 0
  | _ => 0

abbrev bufTy : (tb : Table) → Fin (tcTables nBuf tb) → BufTy
  | .hbm, ⟨0, _⟩ => ⟨S4x8x2048x64, .f32⟩
  | .hbm, ⟨1, _⟩ => ⟨S4x8x2048x64, .f32⟩
  | .hbm, ⟨2, _⟩ => ⟨S4x8x2048x64, .f32⟩
  | .hbm, ⟨3, _⟩ => ⟨S4x8x2048x64, .f32⟩
  | .hbm, ⟨4, _⟩ => ⟨S4x8x2048x64, .f32⟩
  | .hbm, ⟨5, _⟩ => ⟨S_, .f32⟩
  | .hbm, ⟨6, _⟩ => ⟨S4x8x2048x64, .f32⟩
  | .hbm, ⟨7, _⟩ => ⟨S4x8x2048x64, .f32⟩
  | .hbm, ⟨8, _⟩ => ⟨S4x8x2048x2048, .f32⟩
  | .hbm, ⟨9, _⟩ => ⟨S_, .f32⟩
  | .hbm, ⟨10, _⟩ => ⟨S4x8x2048, .f32⟩
  | .hbm, ⟨11, _⟩ => ⟨S_, .f32⟩
  | .hbm, ⟨12, _⟩ => ⟨S4x8x2048, .f32⟩
  | .hbm, ⟨13, _⟩ => ⟨S4x8x2048, .f32⟩
  | .hbm, ⟨14, _⟩ => ⟨S4x8x2048x1, .f32⟩
  | .hbm, ⟨15, _⟩ => ⟨S4x8x2048x2048, .f32⟩
  | .hbm, ⟨16, _⟩ => ⟨S4x8x2048x2048, .f32⟩
  | .hbm, ⟨17, _⟩ => ⟨S4x8x2048x2048, .f32⟩
  | .hbm, ⟨18, _⟩ => ⟨S_, .f32⟩
  | .hbm, ⟨19, _⟩ => ⟨S4x8x2048, .f32⟩
  | .hbm, ⟨20, _⟩ => ⟨S4x8x2048x1, .f32⟩
  | .hbm, ⟨21, _⟩ => ⟨S4x8x2048x2048, .f32⟩
  | .hbm, ⟨22, _⟩ => ⟨S4x8x2048x2048, .f32⟩
  | .hbm, ⟨23, _⟩ => ⟨S4x8x2048x64, .f32⟩
  | _, _ => ⟨S4x8x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]

class Facts₀ : Prop where
  bcast_S_S4x8x2048x64 : S_.BroadcastsInDim S4x8x2048x64 (![] : Fin 0 → Fin S4x8x2048x64.rank)
  reducesTo_S4x8x2048x2048_S4x8x2048_d3 : S4x8x2048x2048.ReducesTo [3] S4x8x2048
  h_S_ : 0 < S_.numel
  bcast_S_S4x8x2048 : S_.BroadcastsInDim S4x8x2048 (![] : Fin 0 → Fin S4x8x2048.rank)
  bcast_S4x8x2048_S4x8x2048x1_0_1_2 : S4x8x2048.BroadcastsInDim S4x8x2048x1 (![0, 1, 2] : Fin 3 → Fin S4x8x2048x1.rank)
  bcast_S4x8x2048x1_S4x8x2048x2048_0_1_2_3 : S4x8x2048x1.BroadcastsInDim S4x8x2048x2048 (![0, 1, 2, 3] : Fin 4 → Fin S4x8x2048x2048.rank)
  dot_S4x8x2048x64_S4x8x2048x64_S4x8x2048x2048_3_3_2_2_01_01_wf : DotDims.WF S4x8x2048x64 S4x8x2048x64 S4x8x2048x2048 [3] [3] [2] [2] [0, 1] [0, 1]
  dot_S4x8x2048x2048_S4x8x2048x64_S4x8x2048x64_3_2_2_3_01_01_wf : DotDims.WF S4x8x2048x2048 S4x8x2048x64 S4x8x2048x64 [3] [2] [2] [3] [0, 1] [0, 1]

variable [Facts₀]

def dot_S4x8x2048x64_S4x8x2048x64_S4x8x2048x2048_3_3_2_2_01_01 : DotDims S4x8x2048x64 S4x8x2048x64 S4x8x2048x2048 where
  lhsContracting := [3]
  rhsContracting := [3]
  lhsNonContracting := [2]
  rhsNonContracting := [2]
  lhsBatch := [0, 1]
  rhsBatch := [0, 1]
  wf := dot_S4x8x2048x64_S4x8x2048x64_S4x8x2048x2048_3_3_2_2_01_01_wf
def dot_S4x8x2048x2048_S4x8x2048x64_S4x8x2048x64_3_2_2_3_01_01 : DotDims S4x8x2048x2048 S4x8x2048x64 S4x8x2048x64 where
  lhsContracting := [3]
  rhsContracting := [2]
  lhsNonContracting := [2]
  rhsNonContracting := [3]
  lhsBatch := [0, 1]
  rhsBatch := [0, 1]
  wf := dot_S4x8x2048x2048_S4x8x2048x64_S4x8x2048x64_3_2_2_3_01_01_wf

class Facts : Prop extends Facts₀ where

variable [Facts]
-- ==== Proof.AttnSpec.lean ====
/-
  Scaled dot-product attention with the mask added to the queries, as functions on the extended reals.

  For a batch `b`, a head `h`, a query row `n` and a key row `c` the score is
  `s(b,h,n,c) = Σ_d ((q[b,h,n,d] + mask[b,h,n,d]) · (1/8)) · k[b,h,c,d]`; the attention weight is the softmax of the
  row of scores, `exp(s_c − M) / Σ_c' exp(s_c' − M)` with `M` the row's maximum taken from −∞; the output is
  `Σ_c weight(b,h,n,c) · v[b,h,c,d]`.  The two result arrays are these functions read at an index's four coordinates.

  The factor `1/8` is written as the binary32 pattern of 0.125, which is exactly 1/8, so dividing by the pattern of 8.0
  is multiplying by it on every extended real (`div_eight`).
-/
import Idealize.ShloMosaic.Lib.ValueIdx
import Idealize.ShloMosaic.PureOps.Ideal.Laws

noncomputable section

open scoped BigOperators

namespace Cert.Attn

open Idealize.ShloMosaic Idealize.ShloMosaic.ValueIdx

/-- The pattern of 0.125 denotes the real 1/8. -/
theorem ofBits_eighth : Ideal.ofBits .f32 0x3E000000#32 = ((1 / 8 : ℝ) : EReal) := by
  simp [Ideal.ofBits, Ideal.ieee, -EReal.coe_mul]; norm_num

/-- The pattern of 8.0 denotes the real 8. -/
theorem ofBits_eight : Ideal.ofBits .f32 0x41000000#32 = ((8 : ℝ) : EReal) := by
  simp [Ideal.ofBits, Ideal.ieee, -EReal.coe_mul]; norm_num

/-- The pattern 0xFF800000 denotes −∞. -/
theorem ofBits_negInf : Ideal.ofBits .f32 0xFF800000#32 = ⊥ := by
  simp [Ideal.ofBits, Ideal.ieee]

/-- Dividing by 8 is multiplying by 1/8, on every extended real. -/
theorem div_eight (x : EReal) :
    Ideal.div x (Ideal.ofBits .f32 0x41000000#32) = x * Ideal.ofBits .f32 0x3E000000#32 := by
  rw [ofBits_eight, ofBits_eighth]; exact Ideal.div_coe (by norm_num) x

/-- The maximum with −∞ on the left changes nothing. -/
theorem max_negInf_left (x : EReal) : max (Ideal.ofBits .f32 0xFF800000#32) x = x := by
  rw [ofBits_negInf]; exact max_eq_right bot_le

/-- The softmax of a row of scores at position `c`: the maximum is folded from −∞ over the row. -/
def softmaxRow {n : ℕ} (s : Fin n → EReal) (c : Fin n) : EReal :=
  Ideal.div (Ideal.exp (s c - (Finset.univ : Finset (Fin n)).fold max (Ideal.ofBits .f32 0xFF800000#32) s))
    (∑ c' : Fin n, Ideal.exp (s c' - (Finset.univ : Finset (Fin n)).fold max (Ideal.ofBits .f32 0xFF800000#32) s))

/-- The shape of the queries, keys, values, the mask and the output. -/
abbrev QKV : Shape := ⟨4, ![4, 8, 2048, 64]⟩
/-- The shape of the attention weights. -/
abbrev ATT : Shape := ⟨4, ![4, 8, 2048, 2048]⟩

/-- The score of query row `n` against key row `c`. -/
def scoreAt (q k mask : QKV.Idx → EReal) (b : Fin 4) (h : Fin 8) (n c : Fin 2048) : EReal :=
  ∑ d : Fin 64, ((q (ix4 b h n d) + mask (ix4 b h n d)) * Ideal.ofBits .f32 0x3E000000#32) * k (ix4 b h c d)

/-- The attention weight of query row `n` on key row `c`. -/
def attnAt (q k mask : QKV.Idx → EReal) (b : Fin 4) (h : Fin 8) (n c : Fin 2048) : EReal :=
  softmaxRow (fun c' : Fin 2048 => scoreAt q k mask b h n c') c

/-- The output at query row `n`, feature `d`. -/
def outAt (q k v mask : QKV.Idx → EReal) (b : Fin 4) (h : Fin 8) (n : Fin 2048) (d : Fin 64) : EReal :=
  ∑ c : Fin 2048, attnAt q k mask b h n c * v (ix4 b h c d)

/-- The array of attention weights. -/
def attnArr (q k mask : QKV.Idx → EReal) : ATT.Idx → EReal :=
  fun i => attnAt q k mask (i 0) (i 1) (i 2) (i 3)

/-- The output array. -/
def outArr (q k v mask : QKV.Idx → EReal) : QKV.Idx → EReal :=
  fun i => outAt q k v mask (i 0) (i 1) (i 2) (i 3)

theorem attnArr_ix4 (q k mask : QKV.Idx → EReal) (b : Fin 4) (h : Fin 8) (n c : Fin 2048) :
    attnArr q k mask (ix4 b h n c) = attnAt q k mask b h n c := rfl

theorem outArr_ix4 (q k v mask : QKV.Idx → EReal) (b : Fin 4) (h : Fin 8) (n : Fin 2048) (d : Fin 64) :
    outArr q k v mask (ix4 b h n d) = outAt q k v mask b h n d := rfl

end Cert.Attn

end
-- ==== Proof.LibMatmul2.lean ====
/-
  A rank-2 by rank-2 matrix product with one contracted axis on each side and no batch axis, read at an entry of the
  result, at the ideal values: the sum over the contracted coordinate of the products of the operands' entries. Four
  arrangements of the contracted axes, for a product into a zero accumulator:

  * `matmul_nn_apply`: rows by columns, `out[a, b] = Σ_c A[a, c] · B[c, b]`;
  * `matmul_tn_apply`: the left operand contracted on its rows, `out[a, b] = Σ_c A[c, a] · B[c, b]`;
  * `matmul_nt_apply`: the right operand contracted on its columns, `out[a, b] = Σ_c A[a, c] · B[b, c]`;
  * `matmul_tt_apply`: both, `out[a, b] = Σ_c A[c, a] · B[b, c]`.
-/
import Idealize.ShloMosaic.PureOps.Ideal.Laws
import Idealize.ShloMosaic.Lib.ValueIdx

namespace LibMatmul2

open Idealize.ShloMosaic Idealize.ShloMosaic.ValueIdx

variable {m k n : Nat} {φ₁ φ₂ : FTy}

/-- Rows by columns. -/
theorem matmul_nn_apply
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    FloatOps.matmul (⟨[1], [0], [0], [1], [], [], w⟩ : DotDims _ _ _) prec A B (constant _ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The left operand contracted on its rows. -/
theorem matmul_tn_apply
    (w : DotDims.WF ⟨2, ![k, m]⟩ ⟨2, ![k, n]⟩ ⟨2, ![m, n]⟩ [0] [0] [1] [1] [] [])
    (prec : Option ContractPrecision) (A : FVec Ideal ⟨2, ![k, m]⟩ φ₁) (B : FVec Ideal ⟨2, ![k, n]⟩ φ₂) (a : Fin m) (b : Fin n) :
    FloatOps.matmul (⟨[0], [0], [1], [1], [], [], w⟩ : DotDims _ _ _) prec A B (constant _ .f32 0x00000000#32) (ix2 a b)
      = ∑ c : Fin k, A (ix2 c a) * B (ix2 c b) := by
  rw [Ideal.matmul_constant_zero_apply,
    ← Equiv.sum_comp (contrEquiv1 (⟨[0], [0], [1], [1], [], [], w⟩ : DotDims _ _ _) k rfl rfl).symm]
  refine Finset.sum_congr rfl fun c _ => ?_
  have c2 := contrEquiv1_symm_val (⟨[0], [0], [1], [1], [], [], w⟩ : DotDims ⟨2, ![k, m]⟩ ⟨2, ![k, n]⟩ ⟨2, ![m, n]⟩) k rfl rfl c
  have l2 : (⟨[0], [0], [1], [1], [], [], w⟩ : DotDims ⟨2, ![k, m]⟩ ⟨2, ![k, n]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![k, m]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The right operand contracted on its columns. -/
theorem matmul_nt_apply
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂) (a : Fin m) (b : Fin n) :
    FloatOps.matmul (⟨[1], [1], [0], [0], [], [], w⟩ : DotDims _ _ _) prec A B (constant _ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- The left operand contracted on its rows and the right one on its columns. -/
theorem matmul_tt_apply
    (w : DotDims.WF ⟨2, ![k, m]⟩ ⟨2, ![n, k]⟩ ⟨2, ![m, n]⟩ [0] [1] [1] [0] [] [])
    (prec : Option ContractPrecision) (A : FVec Ideal ⟨2, ![k, m]⟩ φ₁) (B : FVec Ideal ⟨2, ![n, k]⟩ φ₂) (a : Fin m) (b : Fin n) :
    FloatOps.matmul (⟨[0], [1], [1], [0], [], [], w⟩ : DotDims _ _ _) prec A B (constant _ .f32 0x00000000#32) (ix2 a b)
      = ∑ c : Fin k, A (ix2 c a) * B (ix2 b c) := by
  rw [Ideal.matmul_constant_zero_apply,
    ← Equiv.sum_comp (contrEquiv1 (⟨[0], [1], [1], [0], [], [], w⟩ : DotDims _ _ _) k rfl rfl).symm]
  refine Finset.sum_congr rfl fun c _ => ?_
  have c2 := contrEquiv1_symm_val (⟨[0], [1], [1], [0], [], [], w⟩ : DotDims ⟨2, ![k, m]⟩ ⟨2, ![n, k]⟩ ⟨2, ![m, n]⟩) k rfl rfl c
  have l2 : (⟨[0], [1], [1], [0], [], [], w⟩ : DotDims ⟨2, ![k, m]⟩ ⟨2, ![n, k]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [1], [1], [0], [], [], w⟩ : DotDims ⟨2, ![k, m]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end LibMatmul2
-- ==== Proof.LibRowMax.lean ====
/-
  The maximum along the lanes of an `[a, b]` array, read at a row, at the ideal values.

  In a kernel (`vector.multi_reduction <maximumf>` over axis 1, started from the word of −∞) and on the host (a
  one-operand `stablehlo.reduce` over axis 1 whose body is the maximum) the entry at row `p` is the same thing: the
  maximum, folded from the starting value over the `b` entries of that row, in any order.  Both are stated with the
  row's entries written `src (ix2 p k)`, so the two sides of a kernel-against-reference proof meet as one fold.
-/
import Idealize.ShloMosaic.Lib.ValueIdx
import Idealize.ShloMosaic.PureOps.Ideal.Laws

noncomputable section

namespace Cert.Lib.RowMax

open Idealize.ShloMosaic Idealize.ShloMosaic.ValueIdx

/-- A kernel's lane maximum of an `[a, b]` tile, at row `p`: the fold of `max` from the word of −∞ over the row. -/
theorem rowMax_apply {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (p : Fin a) :
    multiReduction (F := Ideal) .maximumf [1] ⟨1, ![a]⟩ src 0xFF800000#32 h hφ hacc (ix1 p)
      = (Finset.univ : Finset (Fin b)).fold max (Ideal.ofBits .f32 0xFF800000#32) (fun k => src (ix2 p k)) := by
  refine (Ideal.multiReduction_maximumf_single src 0xFF800000#32 h hφ hacc (ix1 p)).trans ?_
  refine congrArg (fun g => (Finset.univ : Finset (Fin b)).fold max (Ideal.ofBits .f32 0xFF800000#32) g) (funext fun k => ?_)
  exact congrArg src (funext fun ax => Fin.ext (by match ax with | ⟨0, _⟩ => rfl | ⟨1, _⟩ => rfl))

/-- The host's maximum over axis 1 of an `[a, b]` array, at row `r`: the fold of `max` from the initial value over the row. -/
theorem hostRowMax_apply {a b : ℕ} {u : Shape} (x : (⟨2, ![a, b]⟩ : Shape).Idx → Ideal .f32) (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.maximumf (F := Ideal) (φ := .f32)) x init h' hu (ix1 r)
      = (Finset.univ : Finset (Fin b)).fold max (init (Shape.Idx.first hu)) (fun k => x (ix2 r k)) := by
  refine (Host.reduce_eq_fold_single (FloatOps.maximumf (F := Ideal) (φ := .f32)) x init h' h hu (ix1 r)).trans ?_
  refine congrArg (fun g => (Finset.univ : Finset (Fin b)).fold max (init (Shape.Idx.first hu)) g) (funext fun k => ?_)
  exact congrArg x (funext fun ax => Fin.ext (by match ax with | ⟨0, _⟩ => rfl | ⟨1, _⟩ => rfl))

end Cert.Lib.RowMax

end
-- ==== Proof.LibKeepdims.lean ====
/-
  Reading the keepdims layout moves at an index, over arbitrary extents.

  A row statistic kept as a column is built from three moves: a sum along the lanes of an `[a, b]` array into a
  vector of `a` entries, that vector viewed as an `[a, 1]` column, and the column spread back over `b` lanes.  Read
  at row `p`, the first is the sum of the row's `b` entries, the second reads the vector at `p` whatever the unit
  coordinate, and the third reads the column at `(p, 0)` whatever the lane.  The fourth move is the other
  orientation: a vector of `c` entries viewed as a `[1, c]` one-row matrix reads, along its row, as the vector.
  Each is stated at coordinates built by `ix1` / `ix2`, for any element type where no arithmetic is involved.
-/
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.Lib.Keepdims

open Idealize.ShloMosaic Idealize.ShloMosaic.ValueIdx

variable {α : Type}

/-- A vector of `a` entries viewed as an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column spread over `b` lanes reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- The sum along the lanes of an `[a, b]` tile, read at row `p`, is the sum of that row's `b` entries. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction (F := Ideal) .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun ax => Fin.ext ?_)
  match ax with
  | ⟨0, _⟩ => rfl
  | ⟨1, _⟩ => rfl

/-- A vector of `c` entries viewed as a `[1, c]` one-row matrix reads, at `(0, q)`, the vector at `q`. -/
theorem shapeCast_a_1a_apply {c : ℕ} (b : (⟨1, ![c]⟩ : Shape).Idx → α)
    (h : (⟨1, ![c]⟩ : Shape).ShapeCasts ⟨2, ![1, c]⟩) (q : Fin c) :
    shapeCast (⟨2, ![1, c]⟩ : Shape) b h (ix2 0 q) = b (ix1 q) := by
  show shapeCast (⟨1 + 1, Matrix.vecCons 1 ![c]⟩ : Shape) b h (ix2 0 q) = b (ix1 q)
  rw [shapeCast_addUnit_apply]
  exact congrArg b (funext fun a => by match a with | ⟨0, _⟩ => rfl)

end Cert.Lib.Keepdims

end
-- ==== Proof.LibLeadingUnits.lean ====
/-
  Two leading unit axes, read at an index.

  A `[1, 1, a, b]` block viewed as an `[a, b]` matrix reads, at `(r, d)`, the block at `(0, 0, r, d)`; and an `[a, b]`
  matrix viewed as a `[1, 1, a, b]` block reads, at `(u, w, r, d)`, the matrix at `(r, d)` whatever the two unit
  coordinates.  Both views keep the row-major order, so only the position `r · b + d` matters.
-/
import Idealize.ShloMosaic.Lib.ValueIdx
import Idealize.ShloMosaic.Lib.Pipeline.Value

noncomputable section

namespace Cert.Lib.LeadingUnits

open Idealize.ShloMosaic Idealize.ShloMosaic.ValueIdx

variable {α : Type}

/-- A `[1, 1, a, b]` block viewed as an `[a, b]` matrix, at `(r, d)`. -/
theorem shapeCast_11ab_ab_apply {a b : ℕ} (x : (⟨4, ![1, 1, a, b]⟩ : Shape).Idx → α)
    (h : (⟨4, ![1, 1, a, b]⟩ : Shape).ShapeCasts ⟨2, ![a, b]⟩) (r : Fin a) (d : Fin b) :
    shapeCast ⟨2, ![a, b]⟩ x h (ix2 r d) = x (ix4 (0 : Fin 1) (0 : Fin 1) r d) :=
  shapeCast_apply x h _ _ (by
    rw [Shape.rowMajor_val_four, Shape.rowMajor_val_two]
    show (((0 : Fin 1).val * 1 + (0 : Fin 1).val) * a + r.val) * b + d.val = r.val * b + d.val
    simp)

/-- An `[a, b]` matrix viewed as a `[1, 1, a, b]` block, at `(u, w, r, d)`. -/
theorem shapeCast_ab_11ab_apply {a b : ℕ} (x : (⟨2, ![a, b]⟩ : Shape).Idx → α)
    (h : (⟨2, ![a, b]⟩ : Shape).ShapeCasts ⟨4, ![1, 1, a, b]⟩) (u w : Fin 1) (r : Fin a) (d : Fin b) :
    shapeCast ⟨4, ![1, 1, a, b]⟩ x h (ix4 u w r d) = x (ix2 r d) :=
  shapeCast_apply x h _ _ (by
    have hu : u.val = 0 := by omega
    have hw : w.val = 0 := by omega
    rw [Shape.rowMajor_val_four, Shape.rowMajor_val_two]
    show r.val * b + d.val = ((u.val * 1 + w.val) * a + r.val) * b + d.val
    rw [hu, hw]; simp)

end Cert.Lib.LeadingUnits

end
-- ==== Proof.KernelTile.lean ====
/-
  One tile of the kernel, read at an entry.

  At a grid point the body holds a `[512, 64]` block of queries and of the mask, and the whole `[2048, 64]` keys and
  values of the point's batch and head.  Read at row `r` and key row `c`, the weights it stores are the softmax, along
  the 2048 key rows, of the scores `Σ_d ((q[r,d] + mask[r,d]) · (1/8)) · k[c,d]`: the product into a zero accumulator
  is the plain sum over the 64 features, the lane maximum is the fold of `max` from −∞ over the row, the lane sum is
  the sum over the row, and the two column views spread the row's statistic back over the row.  The output it stores
  at `(r, d)` is `Σ_c weight[r,c] · v[c,d]`.  The roundings to bf16 on the way into the products are the identity on
  the extended reals.
-/
import proofs.«109723_j10376640987807_2_alg».proof.Proof.Gen.KernelIdeal.Skeleton
import proofs.«109723_j10376640987807_2_alg».proof.Proof.AttnSpec
import proofs.«109723_j10376640987807_2_alg».proof.Proof.LibMatmul2
import proofs.«109723_j10376640987807_2_alg».proof.Proof.LibRowMax
import proofs.«109723_j10376640987807_2_alg».proof.Proof.LibKeepdims
import proofs.«109723_j10376640987807_2_alg».proof.Proof.LibLeadingUnits

noncomputable section

open scoped BigOperators

namespace Cert.KernelIdeal.Tile

open Cert.KernelIdeal Cert.KernelIdeal.Gen Cert.Attn
open Idealize.ShloMosaic Idealize.ShloMosaic.ValueIdx

/-- The scores of the tile: the scaled sum of the query and mask blocks against the keys. -/
def scoreTile (P0 P1 : Vec Ideal S1x1x512x64 .f32) (P2 : Vec Ideal S1x1x2048x64 .bf16) : FVec Ideal S512x2048 .f32 :=
  matmul dot_S512x64_S2048x64_S512x2048_1_1_0_0_n_n none
    (truncf .bf16 (mulf (addf (shapeCast S512x64 P0 shapeCasts_S1x1x512x64_S512x64) (shapeCast S512x64 P1 shapeCasts_S1x1x512x64_S512x64))
      (broadcast S512x64 (Scalar.ofBits .f32 0x3E000000#32))) bitsLt_bf16_f32)
    (shapeCast S2048x64 P2 shapeCasts_S1x1x2048x64_S2048x64 : FVec Ideal S2048x64 .bf16) (constant S512x2048 .f32 0x00000000#32)

/-- The row maximum of a score tile, spread back over the row. -/
def rowMaxCol (S : FVec Ideal S512x2048 .f32) : FVec Ideal S512x2048 .f32 :=
  broadcastTo S512x2048 (shapeCast S512x1 (multiReduction .maximumf [1] S512 S 0xFF800000#32 reduces_S512x2048_S512 (.inl rfl) rfl)
    shapeCasts_S512_S512x1) broadcasts_S512x1_S512x2048

/-- The row sum of a tile, spread back over the row. -/
def rowSumCol (E : FVec Ideal S512x2048 .f32) : FVec Ideal S512x2048 .f32 :=
  broadcastTo S512x2048 (shapeCast S512x1 (multiReduction .add [1] S512 E 0x00000000#32 reduces_S512x2048_S512 (.inl rfl) rfl)
    shapeCasts_S512_S512x1) broadcasts_S512x1_S512x2048

/-- The exponentials of a score tile shifted by its row maxima. -/
def expTile (S : FVec Ideal S512x2048 .f32) : FVec Ideal S512x2048 .f32 := exp (subf S (rowMaxCol S))

/-- The softmax of a score tile along its rows. -/
def softmaxTile (S : FVec Ideal S512x2048 .f32) : FVec Ideal S512x2048 .f32 := divf (expTile S) (rowSumCol (expTile S))

/-- The weights the body stores are the softmax of the tile's scores. -/
theorem pay2_eq (P0 P1 : Vec Ideal S1x1x512x64 .f32) (P2 : Vec Ideal S1x1x2048x64 .bf16) :
    k0_pay2 P0 P1 P2 = softmaxTile (scoreTile P0 P1 P2) := rfl

/-- The output the body stores is the product of the weights with the values. -/
theorem pay4_eq (P0 P1 : Vec Ideal S1x1x512x64 .f32) (P2 P3 : Vec Ideal S1x1x2048x64 .bf16) :
    k0_pay4 P0 P1 P2 P3 = matmul dot_S512x2048_S2048x64_S512x64_1_0_0_1_n_n none
      (truncf .bf16 (k0_pay2 P0 P1 P2) bitsLt_bf16_f32) (shapeCast S2048x64 P3 shapeCasts_S1x1x2048x64_S2048x64 : FVec Ideal S2048x64 .bf16)
      (constant S512x64 .f32 0x00000000#32) := rfl

theorem scoreTile_apply (P0 P1 : Vec Ideal S1x1x512x64 .f32) (P2 : Vec Ideal S1x1x2048x64 .bf16) (r : Fin 512) (c : Fin 2048) :
    scoreTile P0 P1 P2 (ix2 r c)
      = ∑ d : Fin 64, ((P0 (ix4 (0 : Fin 1) (0 : Fin 1) r d) + P1 (ix4 (0 : Fin 1) (0 : Fin 1) r d)) * Ideal.ofBits .f32 0x3E000000#32)
          * P2 (ix4 (0 : Fin 1) (0 : Fin 1) c d) := by
  unfold scoreTile
  refine (LibMatmul2.matmul_nt_apply _ none _ _ r c).trans ?_
  refine Finset.sum_congr rfl fun d _ => ?_
  show (shapeCast S512x64 P0 shapeCasts_S1x1x512x64_S512x64 (ix2 r d) + shapeCast S512x64 P1 shapeCasts_S1x1x512x64_S512x64 (ix2 r d))
      * Ideal.ofBits .f32 0x3E000000#32 * shapeCast S2048x64 P2 shapeCasts_S1x1x2048x64_S2048x64 (ix2 c d) = _
  rw [Cert.Lib.LeadingUnits.shapeCast_11ab_ab_apply, Cert.Lib.LeadingUnits.shapeCast_11ab_ab_apply,
    Cert.Lib.LeadingUnits.shapeCast_11ab_ab_apply]

theorem rowMaxCol_apply (S : FVec Ideal S512x2048 .f32) (r : Fin 512) (c : Fin 2048) :
    rowMaxCol S (ix2 r c)
      = (Finset.univ : Finset (Fin 2048)).fold max (Ideal.ofBits .f32 0xFF800000#32) (fun c' => S (ix2 r c')) := by
  unfold rowMaxCol
  refine (Cert.Lib.Keepdims.broadcastTo_a1_ab_apply _ broadcasts_S512x1_S512x2048 r c).trans ?_
  refine (Cert.Lib.Keepdims.shapeCast_a_a1_apply _ shapeCasts_S512_S512x1 r 0).trans ?_
  exact Cert.Lib.RowMax.rowMax_apply S reduces_S512x2048_S512 (.inl rfl) rfl r

theorem rowSumCol_apply (E : FVec Ideal S512x2048 .f32) (r : Fin 512) (c : Fin 2048) :
    rowSumCol E (ix2 r c) = ∑ c' : Fin 2048, E (ix2 r c') := by
  unfold rowSumCol
  refine (Cert.Lib.Keepdims.broadcastTo_a1_ab_apply _ broadcasts_S512x1_S512x2048 r c).trans ?_
  refine (Cert.Lib.Keepdims.shapeCast_a_a1_apply _ shapeCasts_S512_S512x1 r 0).trans ?_
  exact Cert.Lib.Keepdims.rowSum_apply E reduces_S512x2048_S512 (.inl rfl) rfl r

theorem expTile_apply (S : FVec Ideal S512x2048 .f32) (r : Fin 512) (c : Fin 2048) :
    expTile S (ix2 r c)
      = Ideal.exp (S (ix2 r c) - (Finset.univ : Finset (Fin 2048)).fold max (Ideal.ofBits .f32 0xFF800000#32) (fun c' => S (ix2 r c'))) := by
  show Ideal.exp (S (ix2 r c) - rowMaxCol S (ix2 r c)) = _
  rw [rowMaxCol_apply]

theorem softmaxTile_apply (S : FVec Ideal S512x2048 .f32) (r : Fin 512) (c : Fin 2048) :
    softmaxTile S (ix2 r c) = softmaxRow (fun c' : Fin 2048 => S (ix2 r c')) c := by
  show Ideal.div (expTile S (ix2 r c)) (rowSumCol (expTile S) (ix2 r c)) = _
  rw [rowSumCol_apply, expTile_apply]
  unfold softmaxRow
  refine congrArg _ (Finset.sum_congr rfl fun c' _ => ?_)
  exact expTile_apply S r c'

/-- The stored weights at row `r`, key row `c`. -/
theorem pay2_apply (P0 P1 : Vec Ideal S1x1x512x64 .f32) (P2 : Vec Ideal S1x1x2048x64 .bf16) (r : Fin 512) (c : Fin 2048) :
    k0_pay2 P0 P1 P2 (ix2 r c)
      = softmaxRow (fun c' : Fin 2048 => ∑ d : Fin 64,
          ((P0 (ix4 (0 : Fin 1) (0 : Fin 1) r d) + P1 (ix4 (0 : Fin 1) (0 : Fin 1) r d)) * Ideal.ofBits .f32 0x3E000000#32)
            * P2 (ix4 (0 : Fin 1) (0 : Fin 1) c' d)) c := by
  rw [pay2_eq, softmaxTile_apply]
  refine congrArg (fun s => softmaxRow s c) (funext fun c' => ?_)
  exact scoreTile_apply P0 P1 P2 r c'

/-- The stored output at row `r`, feature `d`. -/
theorem pay4_apply (P0 P1 : Vec Ideal S1x1x512x64 .f32) (P2 P3 : Vec Ideal S1x1x2048x64 .bf16) (r : Fin 512) (d : Fin 64) :
    k0_pay4 P0 P1 P2 P3 (ix2 r d)
      = ∑ c : Fin 2048, k0_pay2 P0 P1 P2 (ix2 r c) * P3 (ix4 (0 : Fin 1) (0 : Fin 1) c d) := by
  rw [pay4_eq]
  refine (LibMatmul2.matmul_nn_apply _ none _ _ r d).trans ?_
  refine Finset.sum_congr rfl fun c _ => ?_
  show k0_pay2 P0 P1 P2 (ix2 r c) * shapeCast S2048x64 P3 shapeCasts_S1x1x2048x64_S2048x64 (ix2 c d) = _
  rw [Cert.Lib.LeadingUnits.shapeCast_11ab_ab_apply]

end Cert.KernelIdeal.Tile

end
-- ==== Proof.KernelValue.lean ====
/-
  The kernel's two result arrays, whole.

  The grid's 128 points are the triples (batch `b`, head `h`, query tile `qi`).  At a point the query and mask windows
  hold rows `512·qi … 512·qi + 511` of batch `b`, head `h`; the key and value windows hold all 2048 rows of that batch and
  head (the host has rounded them to bf16 first, which changes nothing on the extended reals); the two output windows
  are written back to the same rows as the query block.  So what a point writes back is its block of the attention
  of `AttnSpec`, row `512·qi + r` of the array being row `r` of the tile; and since every row lies in exactly one
  tile the blocks cover both arrays.
-/
import proofs.«109723_j10376640987807_2_alg».proof.Proof.Gen.KernelIdeal.Value
import proofs.«109723_j10376640987807_2_alg».proof.Proof.KernelTile
import Idealize.ShloMosaic.Lib.Pipeline.Value
import Idealize.ShloMosaic.Lib.StableHlo.Run

noncomputable section

open scoped BigOperators

namespace Cert.KernelIdeal.Whole

open Cert.KernelIdeal Cert.KernelIdeal.Gen Cert.KernelIdeal.Value Cert.KernelIdeal.Tile Cert.Attn
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0, 0, 0] : Fin 4 → Nat) = fun _ => 0 := funext fun a => by fin_cases a <;> rfl

/-! ## What the body leaves in the two output blocks, at an entry -/

/-- The weights block at `(·, ·, r, c)` is the stored softmax at `(r, c)`. -/
theorem out5_apply (X0 X3 : Vec Ideal S1x1x512x64 .f32) (X1 X2 : Vec Ideal S1x1x2048x64 .bf16)
    (u w : Fin 1) (r : Fin 512) (cc : Fin 2048) :
    out0_5 X0 X1 X2 X3 (ix4 u w r cc) = k0_pay2 X0 X3 X1 (ix2 r cc) := by
  unfold out0_5
  rw [View.canon_unit_zero hz]
  simp only [View.ld_unit_zero (S := S1x1x512x64) hz, View.ld_unit_zero (S := S1x1x2048x64) hz]
  exact Cert.Lib.LeadingUnits.shapeCast_ab_11ab_apply (k0_pay2 X0 X3 X1) shapeCasts_S512x2048_S1x1x512x2048 u w r cc

/-- The output block at `(·, ·, r, d)` is the stored product at `(r, d)`. -/
theorem out4_apply (X0 X3 : Vec Ideal S1x1x512x64 .f32) (X1 X2 : Vec Ideal S1x1x2048x64 .bf16)
    (u w : Fin 1) (r : Fin 512) (d : Fin 64) :
    out0_4 X0 X1 X2 X3 (ix4 u w r d) = k0_pay4 X0 X3 X1 X2 (ix2 r d) := by
  unfold out0_4
  rw [View.canon_unit_zero hz]
  simp only [View.ld_unit_zero (S := S1x1x512x64) hz, View.ld_unit_zero (S := S1x1x2048x64) hz]
  exact Cert.Lib.LeadingUnits.shapeCast_ab_11ab_apply (k0_pay4 X0 X3 X1 X2) shapeCasts_S512x64_S1x1x512x64 u w r d

/-- A tile whose blocks are rows of the arrays stores the attention weights of those rows. -/
theorem attn_block (Q K Mk : QKV.Idx → EReal) (X0 X3 : Vec Ideal S1x1x512x64 .f32) (X1 : Vec Ideal S1x1x2048x64 .bf16)
    (b : Fin 4) (h : Fin 8) (n : Fin 2048) (r : Fin 512)
    (h0 : ∀ d : Fin 64, X0 (ix4 (0 : Fin 1) (0 : Fin 1) r d) = Q (ix4 b h n d))
    (h3 : ∀ d : Fin 64, X3 (ix4 (0 : Fin 1) (0 : Fin 1) r d) = Mk (ix4 b h n d))
    (h1 : ∀ (c : Fin 2048) (d : Fin 64), X1 (ix4 (0 : Fin 1) (0 : Fin 1) c d) = K (ix4 b h c d)) (cc : Fin 2048) :
    k0_pay2 X0 X3 X1 (ix2 r cc) = attnAt Q K Mk b h n cc := by
  rw [pay2_apply]
  unfold attnAt scoreAt
  simp only [h0, h3, h1]

/-- … and the output of those rows. -/
theorem out_block (Q K Vv Mk : QKV.Idx → EReal) (X0 X3 : Vec Ideal S1x1x512x64 .f32) (X1 X2 : Vec Ideal S1x1x2048x64 .bf16)
    (b : Fin 4) (h : Fin 8) (n : Fin 2048) (r : Fin 512)
    (h0 : ∀ d : Fin 64, X0 (ix4 (0 : Fin 1) (0 : Fin 1) r d) = Q (ix4 b h n d))
    (h3 : ∀ d : Fin 64, X3 (ix4 (0 : Fin 1) (0 : Fin 1) r d) = Mk (ix4 b h n d))
    (h1 : ∀ (c : Fin 2048) (d : Fin 64), X1 (ix4 (0 : Fin 1) (0 : Fin 1) c d) = K (ix4 b h c d))
    (h2 : ∀ (c : Fin 2048) (d : Fin 64), X2 (ix4 (0 : Fin 1) (0 : Fin 1) c d) = Vv (ix4 b h c d)) (d : Fin 64) :
    k0_pay4 X0 X3 X1 X2 (ix2 r d) = outAt Q K Vv Mk b h n d := by
  rw [pay4_apply]
  unfold outAt
  refine Finset.sum_congr rfl fun c _ => ?_
  rw [attn_block Q K Mk X0 X3 X1 b h n r h0 h3 h1 c, h2]

/-! ## The host's roundings before the region -/

/-- The keys as the region finds them are the keys as launched. -/
theorem V_main_v0 (c : Dev nD) : (V m c main_v0 : S4x8x2048x64.Idx → EReal) = m ((c : Thread nD τ).loc main_arg1) := by
  dsimp only [Gen.V, Gen.hostOps0]; after_results; rfl

/-- The values as the region finds them are the values as launched. -/
theorem V_main_v1 (c : Dev nD) : (V m c main_v1 : S4x8x2048x64.Idx → EReal) = m ((c : Thread nD τ).loc main_arg2) := by
  dsimp only [Gen.V, Gen.hostOps0]; after_results; rfl

/-! ## The index maps over the grid -/

/-- Every window's block index is read off the output's: the same batch and head; the query, mask and output tiles
    the same tile; the keys and values block 0. -/
theorem idx_facts : ∀ t : Fin cfg0.N,
    (win0_0.index t (0 : Fin 4) = win0_5.index t (0 : Fin 4) ∧ win0_0.index t (1 : Fin 4) = win0_5.index t (1 : Fin 4)
      ∧ win0_0.index t (2 : Fin 4) = win0_5.index t (2 : Fin 4) ∧ win0_0.index t (3 : Fin 4) = 0)
    ∧ (win0_3.index t (0 : Fin 4) = win0_5.index t (0 : Fin 4) ∧ win0_3.index t (1 : Fin 4) = win0_5.index t (1 : Fin 4)
      ∧ win0_3.index t (2 : Fin 4) = win0_5.index t (2 : Fin 4) ∧ win0_3.index t (3 : Fin 4) = 0)
    ∧ (win0_1.index t (0 : Fin 4) = win0_5.index t (0 : Fin 4) ∧ win0_1.index t (1 : Fin 4) = win0_5.index t (1 : Fin 4)
      ∧ win0_1.index t (2 : Fin 4) = 0 ∧ win0_1.index t (3 : Fin 4) = 0)
    ∧ (win0_2.index t (0 : Fin 4) = win0_5.index t (0 : Fin 4) ∧ win0_2.index t (1 : Fin 4) = win0_5.index t (1 : Fin 4)
      ∧ win0_2.index t (2 : Fin 4) = 0 ∧ win0_2.index t (3 : Fin 4) = 0)
    ∧ (win0_4.index t (0 : Fin 4) = win0_5.index t (0 : Fin 4) ∧ win0_4.index t (1 : Fin 4) = win0_5.index t (1 : Fin 4)
      ∧ win0_4.index t (2 : Fin 4) = win0_5.index t (2 : Fin 4) ∧ win0_4.index t (3 : Fin 4) = 0)
    ∧ (win0_5.index t (0 : Fin 4) < 4 ∧ win0_5.index t (1 : Fin 4) < 8 ∧ win0_5.index t (2 : Fin 4) < 4
      ∧ win0_5.index t (3 : Fin 4) = 0) :=
  (by decide +kernel : ∀ t : Fin grid0.N, _)

/-- Every (batch, head, tile) is some point's. -/
theorem idx_onto : ∀ (b : Fin 4) (h : Fin 8) (qi : Fin 4), ∃ t : Fin cfg0.N,
    win0_5.index t (0 : Fin 4) = b.val ∧ win0_5.index t (1 : Fin 4) = h.val ∧ win0_5.index t (2 : Fin 4) = qi.val :=
  (by decide +kernel : ∀ (b : Fin 4) (h : Fin 8) (qi : Fin 4), ∃ t : Fin grid0.N,
    win0_5.index t (0 : Fin 4) = b.val ∧ win0_5.index t (1 : Fin 4) = h.val ∧ win0_5.index t (2 : Fin 4) = qi.val)

/-! ## The input blocks as rows of the arrays -/

/-- The query block at a point: row `r` of the block is row `index₂ · 512 + r` of the point's batch and head. -/
theorem iblk0_apply (c : Dev nD) (t : Fin cfg0.N) (r : Fin 512) (d : Fin 64) (b : Fin 4) (h : Fin 8) (n : Fin 2048)
    (hb : b.val = win0_0.index t (0 : Fin 4)) (hh : h.val = win0_0.index t (1 : Fin 4))
    (hn : n.val = win0_0.index t (2 : Fin 4) * 512 + r.val) (h3 : win0_0.index t (3 : Fin 4) = 0) :
    (iblk m c 0 t : Vec Ideal S1x1x512x64 .f32) (ix4 (0 : Fin 1) (0 : Fin 1) r d)
      = (m ((c : Thread nD τ).loc main_arg0) : S4x8x2048x64.Idx → EReal) (ix4 b h n d) := by
  unfold iblk
  rw [View.read_apply]
  show V m c main_arg0 _ = m (c.tc.loc main_arg0) _
  rw [V_main_arg0]
  refine congrArg _ (funext fun a => Fin.ext ?_)
  match a with
  | ⟨0, _⟩ => show win0_0.index t (0 : Fin 4) * 1 + 1 * (0 : Fin 1).val = b.val; rw [hb]; simp
  | ⟨1, _⟩ => show win0_0.index t (1 : Fin 4) * 1 + 1 * (0 : Fin 1).val = h.val; rw [hh]; simp
  | ⟨2, _⟩ => show win0_0.index t (2 : Fin 4) * 512 + 1 * r.val = n.val; rw [hn]; omega
  | ⟨3, _⟩ => show win0_0.index t (3 : Fin 4) * 64 + 1 * d.val = d.val; rw [h3]; omega

/-- The mask block at a point, likewise. -/
theorem iblk3_apply (c : Dev nD) (t : Fin cfg0.N) (r : Fin 512) (d : Fin 64) (b : Fin 4) (h : Fin 8) (n : Fin 2048)
    (hb : b.val = win0_3.index t (0 : Fin 4)) (hh : h.val = win0_3.index t (1 : Fin 4))
    (hn : n.val = win0_3.index t (2 : Fin 4) * 512 + r.val) (h3 : win0_3.index t (3 : Fin 4) = 0) :
    (iblk m c 3 t : Vec Ideal S1x1x512x64 .f32) (ix4 (0 : Fin 1) (0 : Fin 1) r d)
      = (m ((c : Thread nD τ).loc main_arg3) : S4x8x2048x64.Idx → EReal) (ix4 b h n d) := by
  unfold iblk
  rw [View.read_apply]
  show V m c main_arg3 _ = m (c.tc.loc main_arg3) _
  rw [V_main_arg3]
  refine congrArg _ (funext fun a => Fin.ext ?_)
  match a with
  | ⟨0, _⟩ => show win0_3.index t (0 : Fin 4) * 1 + 1 * (0 : Fin 1).val = b.val; rw [hb]; simp
  | ⟨1, _⟩ => show win0_3.index t (1 : Fin 4) * 1 + 1 * (0 : Fin 1).val = h.val; rw [hh]; simp
  | ⟨2, _⟩ => show win0_3.index t (2 : Fin 4) * 512 + 1 * r.val = n.val; rw [hn]; omega
  | ⟨3, _⟩ => show win0_3.index t (3 : Fin 4) * 64 + 1 * d.val = d.val; rw [h3]; omega

/-- The key block at a point: all 2048 rows of the point's batch and head. -/
theorem iblk1_apply (c : Dev nD) (t : Fin cfg0.N) (k : Fin 2048) (d : Fin 64) (b : Fin 4) (h : Fin 8)
    (hb : b.val = win0_1.index t (0 : Fin 4)) (hh : h.val = win0_1.index t (1 : Fin 4))
    (h2 : win0_1.index t (2 : Fin 4) = 0) (h3 : win0_1.index t (3 : Fin 4) = 0) :
    (iblk m c 1 t : Vec Ideal S1x1x2048x64 .bf16) (ix4 (0 : Fin 1) (0 : Fin 1) k d)
      = (m ((c : Thread nD τ).loc main_arg1) : S4x8x2048x64.Idx → EReal) (ix4 b h k d) := by
  unfold iblk
  rw [View.read_apply]
  show (V m c main_v0 : S4x8x2048x64.Idx → EReal) _ = m (c.tc.loc main_arg1) _
  rw [V_main_v0]
  refine congrArg _ (funext fun a => Fin.ext ?_)
  match a with
  | ⟨0, _⟩ => show win0_1.index t (0 : Fin 4) * 1 + 1 * (0 : Fin 1).val = b.val; rw [hb]; simp
  | ⟨1, _⟩ => show win0_1.index t (1 : Fin 4) * 1 + 1 * (0 : Fin 1).val = h.val; rw [hh]; simp
  | ⟨2, _⟩ => show win0_1.index t (2 : Fin 4) * 2048 + 1 * k.val = k.val; rw [h2]; omega
  | ⟨3, _⟩ => show win0_1.index t (3 : Fin 4) * 64 + 1 * d.val = d.val; rw [h3]; omega

/-- The value block at a point, likewise. -/
theorem iblk2_apply (c : Dev nD) (t : Fin cfg0.N) (k : Fin 2048) (d : Fin 64) (b : Fin 4) (h : Fin 8)
    (hb : b.val = win0_2.index t (0 : Fin 4)) (hh : h.val = win0_2.index t (1 : Fin 4))
    (h2 : win0_2.index t (2 : Fin 4) = 0) (h3 : win0_2.index t (3 : Fin 4) = 0) :
    (iblk m c 2 t : Vec Ideal S1x1x2048x64 .bf16) (ix4 (0 : Fin 1) (0 : Fin 1) k d)
      = (m ((c : Thread nD τ).loc main_arg2) : S4x8x2048x64.Idx → EReal) (ix4 b h k d) := by
  unfold iblk
  rw [View.read_apply]
  show (V m c main_v1 : S4x8x2048x64.Idx → EReal) _ = m (c.tc.loc main_arg2) _
  rw [V_main_v1]
  refine congrArg _ (funext fun a => Fin.ext ?_)
  match a with
  | ⟨0, _⟩ => show win0_2.index t (0 : Fin 4) * 1 + 1 * (0 : Fin 1).val = b.val; rw [hb]; simp
  | ⟨1, _⟩ => show win0_2.index t (1 : Fin 4) * 1 + 1 * (0 : Fin 1).val = h.val; rw [hh]; simp
  | ⟨2, _⟩ => show win0_2.index t (2 : Fin 4) * 2048 + 1 * k.val = k.val; rw [h2]; omega
  | ⟨3, _⟩ => show win0_2.index t (3 : Fin 4) * 64 + 1 * d.val = d.val; rw [h3]; omega

/-! ## What a point writes back -/

/-- Point `t` writes back its block of the attention weights. -/
theorem flushed5_eq (c : Dev nD) (t : Fin cfg0.N) :
    (dats m 0 c).flushed 5 t = ((cfg0.win 5).blk t).view.read (Elt Ideal)
      (attnArr (m ((c : Thread nD τ).loc main_arg0)) (m ((c : Thread nD τ).loc main_arg1)) (m ((c : Thread nD τ).loc main_arg3))) := by
  rw [Value.flushed5]
  obtain ⟨⟨a0, a1, a2, a3⟩, ⟨m0, m1, m2, m3⟩, ⟨k0, k1, k2, k3⟩, -, -, ⟨o0, o1, o2, o3⟩⟩ := idx_facts t
  refine funext fun (j : S1x1x512x2048.Idx) => ?_
  obtain ⟨u, w, r, cc, rfl⟩ : ∃ (u w : Fin 1) (r : Fin 512) (cc : Fin 2048), j = ix4 u w r cc := ⟨j 0, j 1, j 2, j 3, eq_ix4 j⟩
  show out0_5 (iblk m c 0 t) (iblk m c 1 t) (iblk m c 2 t) (iblk m c 3 t) (ix4 u w r cc)
    = attnArr _ _ _ (((cfg0.win 5).blk t).view.emb (ix4 u w r cc))
  refine (out5_apply (iblk m c 0 t) (iblk m c 3 t) (iblk m c 1 t) (iblk m c 2 t) u w r cc).trans ?_
  have hr : r.val < 512 := r.isLt
  have hemb : ((cfg0.win 5).blk t).view.emb (ix4 u w r cc)
      = ix4 (⟨win0_5.index t (0 : Fin 4), o0⟩ : Fin 4) (⟨win0_5.index t (1 : Fin 4), o1⟩ : Fin 8)
          (⟨win0_5.index t (2 : Fin 4) * 512 + r.val, by omega⟩ : Fin 2048) cc := by
    refine funext fun a => Fin.ext ?_
    have hu : u.val = 0 := by omega
    have hw : w.val = 0 := by omega
    match a with
    | ⟨0, _⟩ => show win0_5.index t (0 : Fin 4) * 1 + 1 * u.val = win0_5.index t (0 : Fin 4); rw [hu]; simp
    | ⟨1, _⟩ => show win0_5.index t (1 : Fin 4) * 1 + 1 * w.val = win0_5.index t (1 : Fin 4); rw [hw]; simp
    | ⟨2, _⟩ => show win0_5.index t (2 : Fin 4) * 512 + 1 * r.val = win0_5.index t (2 : Fin 4) * 512 + r.val; omega
    | ⟨3, _⟩ => show win0_5.index t (3 : Fin 4) * 2048 + 1 * cc.val = cc.val; rw [o3]; omega
  refine Eq.trans ?_ (congrArg (attnArr _ _ _) hemb.symm)
  rw [attnArr_ix4]
  exact attn_block _ _ _ (iblk m c 0 t) (iblk m c 3 t) (iblk m c 1 t) _ _ _ r
    (fun d => iblk0_apply m c t r d _ _ _ a0.symm a1.symm (by show _ = win0_0.index t (2 : Fin 4) * 512 + r.val; rw [a2]) a3)
    (fun d => iblk3_apply m c t r d _ _ _ m0.symm m1.symm (by show _ = win0_3.index t (2 : Fin 4) * 512 + r.val; rw [m2]) m3)
    (fun k d => iblk1_apply m c t k d _ _ k0.symm k1.symm k2 k3) cc

/-- Point `t` writes back its block of the output. -/
theorem flushed4_eq (c : Dev nD) (t : Fin cfg0.N) :
    (dats m 0 c).flushed 4 t = ((cfg0.win 4).blk t).view.read (Elt Ideal)
      (outArr (m ((c : Thread nD τ).loc main_arg0)) (m ((c : Thread nD τ).loc main_arg1)) (m ((c : Thread nD τ).loc main_arg2))
        (m ((c : Thread nD τ).loc main_arg3))) := by
  rw [Value.flushed4]
  obtain ⟨⟨a0, a1, a2, a3⟩, ⟨m0, m1, m2, m3⟩, ⟨k0, k1, k2, k3⟩, ⟨v0, v1, v2, v3⟩, ⟨p0, p1, p2, p3⟩, ⟨o0, o1, o2, o3⟩⟩ := idx_facts t
  refine funext fun (j : S1x1x512x64.Idx) => ?_
  obtain ⟨u, w, r, d, rfl⟩ : ∃ (u w : Fin 1) (r : Fin 512) (d : Fin 64), j = ix4 u w r d := ⟨j 0, j 1, j 2, j 3, eq_ix4 j⟩
  show out0_4 (iblk m c 0 t) (iblk m c 1 t) (iblk m c 2 t) (iblk m c 3 t) (ix4 u w r d)
    = outArr _ _ _ _ (((cfg0.win 4).blk t).view.emb (ix4 u w r d))
  refine (out4_apply (iblk m c 0 t) (iblk m c 3 t) (iblk m c 1 t) (iblk m c 2 t) u w r d).trans ?_
  have hr : r.val < 512 := r.isLt
  have hemb : ((cfg0.win 4).blk t).view.emb (ix4 u w r d)
      = ix4 (⟨win0_5.index t (0 : Fin 4), o0⟩ : Fin 4) (⟨win0_5.index t (1 : Fin 4), o1⟩ : Fin 8)
          (⟨win0_5.index t (2 : Fin 4) * 512 + r.val, by omega⟩ : Fin 2048) d := by
    refine funext fun a => Fin.ext ?_
    have hu : u.val = 0 := by omega
    have hw : w.val = 0 := by omega
    match a with
    | ⟨0, _⟩ => show win0_4.index t (0 : Fin 4) * 1 + 1 * u.val = win0_5.index t (0 : Fin 4); rw [hu, p0]; simp
    | ⟨1, _⟩ => show win0_4.index t (1 : Fin 4) * 1 + 1 * w.val = win0_5.index t (1 : Fin 4); rw [hw, p1]; simp
    | ⟨2, _⟩ => show win0_4.index t (2 : Fin 4) * 512 + 1 * r.val = win0_5.index t (2 : Fin 4) * 512 + r.val; rw [p2]; omega
    | ⟨3, _⟩ => show win0_4.index t (3 : Fin 4) * 64 + 1 * d.val = d.val; rw [p3]; omega
  refine Eq.trans ?_ (congrArg (outArr _ _ _ _) hemb.symm)
  rw [outArr_ix4]
  exact out_block _ _ _ _ (iblk m c 0 t) (iblk m c 3 t) (iblk m c 1 t) (iblk m c 2 t) _ _ _ r
    (fun d => iblk0_apply m c t r d _ _ _ a0.symm a1.symm (by show _ = win0_0.index t (2 : Fin 4) * 512 + r.val; rw [a2]) a3)
    (fun d => iblk3_apply m c t r d _ _ _ m0.symm m1.symm (by show _ = win0_3.index t (2 : Fin 4) * 512 + r.val; rw [m2]) m3)
    (fun k d => iblk1_apply m c t k d _ _ k0.symm k1.symm k2 k3)
    (fun k d => iblk2_apply m c t k d _ _ v0.symm v1.symm v2 v3) d

/-! ## The blocks cover the arrays -/

/-- An index of the weights array is in point `t`'s block iff each coordinate is in the block's range on its axis. -/
theorem mem_blk5 (t : Fin cfg0.N) (i : S4x8x2048x2048.Idx) :
    i ∈ ((cfg0.win 5).blk t).view.set ↔ ∀ a : Fin 4, win0_5.index t a * S1x1x512x2048.size a ≤ (i a).val
      ∧ (i a).val < win0_5.index t a * S1x1x512x2048.size a + S1x1x512x2048.size a := by
  show i ∈ ((View.whole main_v2_1).slice (win0_5.rect t)).set ↔ _
  rw [View.set_slice_whole, Rect.mem_set_unit]
  exact Iff.rfl

/-- The same for the output array. -/
theorem mem_blk4 (t : Fin cfg0.N) (i : S4x8x2048x64.Idx) :
    i ∈ ((cfg0.win 4).blk t).view.set ↔ ∀ a : Fin 4, win0_4.index t a * S1x1x512x64.size a ≤ (i a).val
      ∧ (i a).val < win0_4.index t a * S1x1x512x64.size a + S1x1x512x64.size a := by
  show i ∈ ((View.whole main_v2_0).slice (win0_4.rect t)).set ↔ _
  rw [View.set_slice_whole, Rect.mem_set_unit]
  exact Iff.rfl

/-- Every index of the weights array is in the block of the point of its batch, head and tile `row / 512`. -/
theorem cover5 (i : S4x8x2048x2048.Idx) :
    ∃ t : Fin cfg0.N, (cfg0.win 5).flush t = true ∧ i ∈ ((cfg0.win 5).blk t).view.set := by
  have h0 : (i 0).val < 4 := (i 0).isLt
  have h1 : (i 1).val < 8 := (i 1).isLt
  have h2 : (i 2).val < 2048 := (i 2).isLt
  have h3 : (i 3).val < 2048 := (i 3).isLt
  obtain ⟨t, e0, e1, e2⟩ := idx_onto ⟨(i 0).val, h0⟩ ⟨(i 1).val, h1⟩ ⟨(i 2).val / 512, by omega⟩
  obtain ⟨-, -, -, -, -, ⟨o0, o1, o2, o3⟩⟩ := idx_facts t
  refine ⟨t, flush0_5 t, ?_⟩
  rw [mem_blk5]
  intro a
  match a with
  | ⟨0, _⟩ => show win0_5.index t (0 : Fin 4) * 1 ≤ (i 0).val ∧ (i 0).val < win0_5.index t (0 : Fin 4) * 1 + 1
              have e0' : win0_5.index t (0 : Fin 4) = (i 0).val := e0
              omega
  | ⟨1, _⟩ => show win0_5.index t (1 : Fin 4) * 1 ≤ (i 1).val ∧ (i 1).val < win0_5.index t (1 : Fin 4) * 1 + 1
              have e1' : win0_5.index t (1 : Fin 4) = (i 1).val := e1
              omega
  | ⟨2, _⟩ => show win0_5.index t (2 : Fin 4) * 512 ≤ (i 2).val ∧ (i 2).val < win0_5.index t (2 : Fin 4) * 512 + 512
              have e2' : win0_5.index t (2 : Fin 4) = (i 2).val / 512 := e2
              omega
  | ⟨3, _⟩ => show win0_5.index t (3 : Fin 4) * 2048 ≤ (i 3).val ∧ (i 3).val < win0_5.index t (3 : Fin 4) * 2048 + 2048
              omega

/-- Every index of the output array is in the block of the point of its batch, head and tile `row / 512`. -/
theorem cover4 (i : S4x8x2048x64.Idx) :
    ∃ t : Fin cfg0.N, (cfg0.win 4).flush t = true ∧ i ∈ ((cfg0.win 4).blk t).view.set := by
  have h0 : (i 0).val < 4 := (i 0).isLt
  have h1 : (i 1).val < 8 := (i 1).isLt
  have h2 : (i 2).val < 2048 := (i 2).isLt
  have h3 : (i 3).val < 64 := (i 3).isLt
  obtain ⟨t, e0, e1, e2⟩ := idx_onto ⟨(i 0).val, h0⟩ ⟨(i 1).val, h1⟩ ⟨(i 2).val / 512, by omega⟩
  obtain ⟨-, -, -, -, ⟨p0, p1, p2, p3⟩, -⟩ := idx_facts t
  refine ⟨t, flush0_4 t, ?_⟩
  rw [mem_blk4]
  intro a
  match a with
  | ⟨0, _⟩ => show win0_4.index t (0 : Fin 4) * 1 ≤ (i 0).val ∧ (i 0).val < win0_4.index t (0 : Fin 4) * 1 + 1
              have e0' : win0_5.index t (0 : Fin 4) = (i 0).val := e0
              omega
  | ⟨1, _⟩ => show win0_4.index t (1 : Fin 4) * 1 ≤ (i 1).val ∧ (i 1).val < win0_4.index t (1 : Fin 4) * 1 + 1
              have e1' : win0_5.index t (1 : Fin 4) = (i 1).val := e1
              omega
  | ⟨2, _⟩ => show win0_4.index t (2 : Fin 4) * 512 ≤ (i 2).val ∧ (i 2).val < win0_4.index t (2 : Fin 4) * 512 + 512
              have e2' : win0_5.index t (2 : Fin 4) = (i 2).val / 512 := e2
              omega
  | ⟨3, _⟩ => show win0_4.index t (3 : Fin 4) * 64 ≤ (i 3).val ∧ (i 3).val < win0_4.index t (3 : Fin 4) * 64 + 64
              omega

/-! ## The arrays after the run -/

/-- The weights array ends holding the attention weights. -/
theorem final5 (c : Dev nD) : (dats m 0 c).arrAt 5 cfg0.N
    = attnArr (m ((c : Thread nD τ).loc main_arg0)) (m ((c : Thread nD τ).loc main_arg1)) (m ((c : Thread nD τ).loc main_arg3)) :=
  (dats m 0 c).arrAt_eq_of_cover 5 _ (fun t _ => flushed5_eq m c t) cover5

/-- The output array ends holding the output. -/
theorem final4 (c : Dev nD) : (dats m 0 c).arrAt 4 cfg0.N
    = outArr (m ((c : Thread nD τ).loc main_arg0)) (m ((c : Thread nD τ).loc main_arg1)) (m ((c : Thread nD τ).loc main_arg2))
        (m ((c : Thread nD τ).loc main_arg3)) :=
  (dats m 0 c).arrAt_eq_of_cover 4 _ (fun t _ => flushed4_eq m c t) cover4

/-- The kernel's run: both results at the attention of the arguments, the arguments unchanged. -/
theorem run : θ_run defs (onTc (τ := τ) (main (F := Ideal))) ⟨m, fun _ => 0, ρ⟩ fun r => ∀ c : Dev nD,
      r.2.mem ((c : Thread nD τ).loc main_v2_0)
        = outArr (m ((c : Thread nD τ).loc main_arg0)) (m ((c : Thread nD τ).loc main_arg1)) (m ((c : Thread nD τ).loc main_arg2))
            (m ((c : Thread nD τ).loc main_arg3))
      ∧ r.2.mem ((c : Thread nD τ).loc main_v2_1)
        = attnArr (m ((c : Thread nD τ).loc main_arg0)) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2⟩)
    (Value.run_blocks m ρ)

end Cert.KernelIdeal.Whole

end
-- ==== Proof.RefValue.lean ====
/-
  The reference, stage by stage, is the attention of `AttnSpec`.

  Each stage of the reference is read at an index whose coordinates are named: the scaled queries
  `(q + mask) / 8 = (q + mask) · (1/8)`; the scores as the sum over the 64 features; the row maximum as the fold of
  `max` from −∞ over the 2048 key rows (the extra `max` with −∞ the reference takes afterwards changes nothing); the
  exponentials, their row sum (from zero), the quotient; and the output as the sum over the 2048 key rows.
-/
import proofs.«109723_j10376640987807_2_alg».proof.Proof.Gen.ReferenceIdeal.Read
import proofs.«109723_j10376640987807_2_alg».proof.Proof.AttnSpec

noncomputable section

open scoped BigOperators

namespace Cert.ReferenceIdeal.RefValue

open Cert.ReferenceIdeal Cert.ReferenceIdeal.Gen Cert.ReferenceIdeal.Read Cert.Attn
open Idealize.ShloMosaic Idealize.ShloMosaic.ValueIdx

variable (q k v mask : (⟨S4x8x2048x64, .f32⟩ : BufTy).Contents (Elt Ideal))

/-- The scaled queries: the quotient by 8 is the product with 1/8. -/
theorem scaled_apply (b : Fin 4) (h : Fin 8) (n : Fin 2048) (d : Fin 64) :
    val_main_v2 (F := Ideal) q mask (ix4 b h n d)
      = (q (ix4 b h n d) + mask (ix4 b h n d)) * Ideal.ofBits .f32 0x3E000000#32 := by
  rw [val_main_v2_apply, val_main_v0_apply, val_main_v1_apply, val_main_cst_apply]
  exact div_eight _

/-- The scores. -/
theorem score_apply (b : Fin 4) (h : Fin 8) (n c : Fin 2048) :
    val_main_v3 (F := Ideal) q k mask (ix4 b h n c) = scoreAt q k mask b h n c := by
  rw [val_main_v3_apply]
  unfold scoreAt
  refine Finset.sum_congr rfl fun d _ => ?_
  have el : lidx_main_v3 (ix4 b h n c) d = ix4 b h n d := funext fun a => Fin.ext (by
    match a with | ⟨0, _⟩ => rfl | ⟨1, _⟩ => rfl | ⟨2, _⟩ => rfl | ⟨3, _⟩ => rfl)
  have er : ridx_main_v3 (ix4 b h n c) d = ix4 b h c d := funext fun a => Fin.ext (by
    match a with | ⟨0, _⟩ => rfl | ⟨1, _⟩ => rfl | ⟨2, _⟩ => rfl | ⟨3, _⟩ => rfl)
  rw [el, er, scaled_apply]

/-- The row maximum, after the reference's extra maximum with −∞. -/
theorem rowMax_apply (b : Fin 4) (h : Fin 8) (n : Fin 2048) :
    val_main_v6 (F := Ideal) q k mask (ix3 b h n)
      = (Finset.univ : Finset (Fin 2048)).fold max (Ideal.ofBits .f32 0xFF800000#32) (fun c => scoreAt q k mask b h n c) := by
  rw [val_main_v6_apply, val_main_v5_apply, val_main_cst_1_apply]
  refine (max_negInf_left _).trans ?_
  unfold val_main_v4
  have hr : S4x8x2048x2048.Reduces [3] S4x8x2048 := by decide
  refine (Host.reduce_eq_fold_single (FloatOps.maximumf (F := Ideal) (φ := .f32)) (val_main_v3 (F := Ideal) q k mask)
    (val_main_cst_0 (F := Ideal)) reducesTo_S4x8x2048x2048_S4x8x2048_d3 hr h_S_ (ix3 b h n)).trans ?_
  refine congrArg (fun g => (Finset.univ : Finset (Fin 2048)).fold max (Ideal.ofBits .f32 0xFF800000#32) g) (funext fun (c : Fin 2048) => ?_)
  have e : hr.lift (ix3 b h n) c = ix4 b h n c := funext fun a => Fin.ext (by
    match a with | ⟨0, _⟩ => rfl | ⟨1, _⟩ => rfl | ⟨2, _⟩ => rfl | ⟨3, _⟩ => rfl)
  show val_main_v3 (F := Ideal) q k mask (hr.lift (ix3 b h n) c) = _
  rw [e, score_apply]

/-- The exponentials. -/
theorem exp_apply (b : Fin 4) (h : Fin 8) (n c : Fin 2048) :
    val_main_v10 (F := Ideal) q k mask (ix4 b h n c)
      = Ideal.exp (scoreAt q k mask b h n c
          - (Finset.univ : Finset (Fin 2048)).fold max (Ideal.ofBits .f32 0xFF800000#32) (fun c' => scoreAt q k mask b h n c')) := by
  rw [val_main_v10_apply, val_main_v9_apply, val_main_v8_apply, val_main_v7_apply, score_apply]
  have e : idx_main_v7 (idx_main_v8 (ix4 b h n c)) = ix3 b h n := funext fun a => Fin.ext (by
    match a with | ⟨0, _⟩ => rfl | ⟨1, _⟩ => rfl | ⟨2, _⟩ => rfl)
  rw [e, rowMax_apply]
  rfl

/-- The row sums of the exponentials. -/
theorem rowSum_apply (b : Fin 4) (h : Fin 8) (n : Fin 2048) :
    val_main_v11 (F := Ideal) q k mask (ix3 b h n)
      = ∑ c : Fin 2048, Ideal.exp (scoreAt q k mask b h n c
          - (Finset.univ : Finset (Fin 2048)).fold max (Ideal.ofBits .f32 0xFF800000#32) (fun c' => scoreAt q k mask b h n c')) := by
  rw [val_main_v11_apply, val_main_cst_2_apply]
  show Ideal.ofBits .f32 0x00000000#32 + _ = _
  rw [Ideal.ofBits_zero_f32, zero_add]
  refine Finset.sum_congr rfl fun c _ => ?_
  have e : idx_main_v11 (ix3 b h n) c = ix4 b h n c := funext fun a => Fin.ext (by
    match a with | ⟨0, _⟩ => rfl | ⟨1, _⟩ => rfl | ⟨2, _⟩ => rfl | ⟨3, _⟩ => rfl)
  rw [e, exp_apply]

/-- The attention weights. -/
theorem attn_apply (b : Fin 4) (h : Fin 8) (n c : Fin 2048) :
    val_main_v14 (F := Ideal) q k mask (ix4 b h n c) = attnAt q k mask b h n c := by
  rw [val_main_v14_apply, val_main_v13_apply, val_main_v12_apply, exp_apply]
  have e : idx_main_v12 (idx_main_v13 (ix4 b h n c)) = ix3 b h n := funext fun a => Fin.ext (by
    match a with | ⟨0, _⟩ => rfl | ⟨1, _⟩ => rfl | ⟨2, _⟩ => rfl)
  rw [e, rowSum_apply]
  rfl

/-- The output. -/
theorem out_apply (b : Fin 4) (h : Fin 8) (n : Fin 2048) (d : Fin 64) :
    val_main_v15 (F := Ideal) q k v mask (ix4 b h n d) = outAt q k v mask b h n d := by
  rw [val_main_v15_apply]
  unfold outAt
  refine Finset.sum_congr rfl fun c _ => ?_
  have el : lidx_main_v15 (ix4 b h n d) c = ix4 b h n c := funext fun a => Fin.ext (by
    match a with | ⟨0, _⟩ => rfl | ⟨1, _⟩ => rfl | ⟨2, _⟩ => rfl | ⟨3, _⟩ => rfl)
  have er : ridx_main_v15 (ix4 b h n d) c = ix4 b h c d := funext fun a => Fin.ext (by
    match a with | ⟨0, _⟩ => rfl | ⟨1, _⟩ => rfl | ⟨2, _⟩ => rfl | ⟨3, _⟩ => rfl)
  rw [el, er, attn_apply]

/-- The reference's second result is the array of attention weights. -/
theorem attn_eq : val_main_v14 (F := Ideal) q k mask = attnArr q k mask := by
  funext i
  obtain ⟨b, h, n, c, rfl⟩ : ∃ (b : Fin 4) (h : Fin 8) (n c : Fin 2048), i = ix4 b h n c := ⟨i 0, i 1, i 2, i 3, eq_ix4 i⟩
  rw [attn_apply, attnArr_ix4]

/-- The reference's first result is the output array. -/
theorem out_eq : val_main_v15 (F := Ideal) q k v mask = outArr q k v mask := by
  funext i
  obtain ⟨b, h, n, d, rfl⟩ : ∃ (b : Fin 4) (h : Fin 8) (n : Fin 2048) (d : Fin 64), i = ix4 b h n d := ⟨i 0, i 1, i 2, i 3, eq_ix4 i⟩
  rw [out_apply, outArr_ix4]

end Cert.ReferenceIdeal.RefValue

end
-- ==== Proof.lean ====
/-
  Attention with the mask added to the queries, `softmax(((q + mask) / 8) · kᵀ) · v`, tiled over 512 query rows per grid
  point with the keys and values of a head resident, against the reference's two einsums around a softmax.

  On the extended reals both programs compute the same two functions of the four arguments.  The scores are the same
  sums over the 64 features: the kernel multiplies `q + mask` by the binary32 value 0.125, which is exactly 1/8, where
  the reference divides by 8, and the roundings to bf16 before the kernel's products are the identity.  The row
  maximum is the fold of `max` from −∞ over the 2048 key rows on both sides (the reference takes one more maximum
  with −∞, which changes nothing), the exponentials, the row sum and the quotient are the same operations, and the
  output is the same sum over the key rows.  No property of the inputs is used: the two sides are the same
  expression, in the same order up to the order of finite sums.

  `AttnSpec` states the two functions; `RefValue` reads the reference's stages as them; `KernelTile` reads one tile
  of the kernel at an entry; `KernelValue` puts the 128 tiles together into the two whole arrays.
-/
import proofs.«109723_j10376640987807_2_alg».proof.Defs
import proofs.«109723_j10376640987807_2_alg».proof.Proof.Gen.Kernel
import proofs.«109723_j10376640987807_2_alg».proof.Proof.Gen.Kernel.Skeleton
import proofs.«109723_j10376640987807_2_alg».proof.Proof.Gen.Kernel.Launch
import proofs.«109723_j10376640987807_2_alg».proof.Proof.Gen.Kernel.Points
import proofs.«109723_j10376640987807_2_alg».proof.Proof.Gen.Kernel.Frame
import proofs.«109723_j10376640987807_2_alg».proof.Proof.Gen.KernelIdeal
import proofs.«109723_j10376640987807_2_alg».proof.Proof.Gen.KernelIdeal.Skeleton
import proofs.«109723_j10376640987807_2_alg».proof.Proof.Gen.KernelIdeal.Launch
import proofs.«109723_j10376640987807_2_alg».proof.Proof.Gen.KernelIdeal.Points
import proofs.«109723_j10376640987807_2_alg».proof.Proof.Gen.KernelIdeal.Frame
import proofs.«109723_j10376640987807_2_alg».proof.Proof.Gen.ReferenceIdeal
import proofs.«109723_j10376640987807_2_alg».proof.Proof.Gen.KernelIdeal.Value
import proofs.«109723_j10376640987807_2_alg».proof.Proof.Gen.ReferenceIdeal.Run
import proofs.«109723_j10376640987807_2_alg».proof.Proof.Gen.ReferenceIdeal.Read
import proofs.«109723_j10376640987807_2_alg».proof.Proof.Gen.Pre_finite_inputs
import proofs.«109723_j10376640987807_2_alg».proof.Proof.KernelValue
import proofs.«109723_j10376640987807_2_alg».proof.Proof.RefValue
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference's run, with its two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The kernel's two arrays end at the attention of the arguments (`KernelValue`), and so do the reference's
    (`RefValue`), the two programs' arguments being the same arrays. -/
theorem algebraic : Cert.algebraic_KernelIdeal_ReferenceIdeal := by
  intro m ρ m' ρ' _ hagree
  refine ⟨_, _, Cert.KernelIdeal.Whole.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v15_eq, Cert.ReferenceIdeal.RefValue.out_eq,
      (hagree c).1, (hagree c).2.1, (hagree c).2.2.1, (hagree c).2.2.2]
  · rw [Cert.ReferenceIdeal.Read.val_main_v14_eq, Cert.ReferenceIdeal.RefValue.attn_eq,
      (hagree c).1, (hagree c).2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
